-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S128x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x112x112x128 : Shape := ⟨4, ![32, 112, 112, 128]⟩
abbrev S_ : Shape := ⟨0, ![]⟩

class Facts : Prop where
  bcast_S_S32x112x112x128 : S_.BroadcastsInDim S32x112x112x128 (![] : Fin 0 → Fin S32x112x112x128.rank)
  reducesTo_S32x112x112x128_S_d0_1_2_3 : S32x112x112x128.ReducesTo [0, 1, 2, 3] S_
  h_S_ : 0 < S_.numel

variable [Facts]

def fn {F : FTy → Type} [FloatOps F] (main_arg0 : FVec F S32x112x112x128 .f32) (main_arg1 : FVec F S32x112x112x128 .f32) : IVec S_ 1 :=
  let main_v0 : FVec F S32x112x112x128 .f32 := Host.absf main_arg0
  let main_cst : FVec F S_ .f32 := constant S_ .f32 0x7F800000#32
  let main_v1 : FVec F S32x112x112x128 .f32 := broadcastInDim S32x112x112x128 ![] bcast_S_S32x112x112x128 main_cst
  let main_v2 : IVec S32x112x112x128 1 := cmpf .olt main_v0 main_v1
  let main_c : IVec S_ 1 := constantI S_ 1 1#1
  let main_v3 : IVec S_ 1 := (fun x v => Host.reduce IntOp.andi x v reducesTo_S32x112x112x128_S_d0_1_2_3 h_S_) main_v2 main_c
  let main_v4 : FVec F S32x112x112x128 .f32 := Host.absf main_arg1
  let main_cst_0 : FVec F S_ .f32 := constant S_ .f32 0x7F800000#32
  let main_v5 : FVec F S32x112x112x128 .f32 := broadcastInDim S32x112x112x128 ![] bcast_S_S32x112x112x128 main_cst_0
  let main_v6 : IVec S32x112x112x128 1 := cmpf .olt main_v4 main_v5
  let main_c_1 : IVec S_ 1 := constantI S_ 1 1#1
  let main_v7 : IVec S_ 1 := (fun x v => Host.reduce IntOp.andi x v reducesTo_S32x112x112x128_S_d0_1_2_3 h_S_) main_v6 main_c_1
  let main_v8 : IVec S_ 1 := andi main_v3 main_v7
  main_v8
-- ==== Kernel.lean ====
abbrev S32x112x112x128 : Shape := ⟨4, ![32, 112, 112, 128]⟩
abbrev S32x12544x128 : Shape := ⟨3, ![32, 12544, 128]⟩
abbrev S32x128x128 : Shape := ⟨3, ![32, 128, 128]⟩
abbrev S1x12544x128 : Shape := ⟨3, ![1, 12544, 128]⟩
abbrev S1x128x128 : Shape := ⟨3, ![1, 128, 128]⟩
abbrev S12544x128 : Shape := ⟨2, ![12544, 128]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1 : Shape := ⟨2, ![1, 1]⟩
abbrev S32x16384 : Shape := ⟨2, ![32, 16384]⟩

abbrev nBuf : Space → Nat
  | .hbm => 6
  | .vmem => 6
  | .smem => 0
  | _ => 0

abbrev bufTy : (tb : Table) → Fin (tcTables nBuf tb) → BufTy
  | .hbm, ⟨0, _⟩ => ⟨S32x112x112x128, .f32⟩
  | .hbm, ⟨1, _⟩ => ⟨S32x112x112x128, .f32⟩
  | .hbm, ⟨2, _⟩ => ⟨S32x12544x128, .f32⟩
  | .hbm, ⟨3, _⟩ => ⟨S32x12544x128, .f32⟩
  | .hbm, ⟨4, _⟩ => ⟨S32x128x128, .f32⟩
  | .hbm, ⟨5, _⟩ => ⟨S32x16384, .f32⟩
  | .local _ .vmem, ⟨0, _⟩ => ⟨S1x12544x128, .f32⟩
  | .local _ .vmem, ⟨1, _⟩ => ⟨S1x12544x128, .f32⟩
  | .local _ .vmem, ⟨2, _⟩ => ⟨S1x12544x128, .f32⟩
  | .local _ .vmem, ⟨3, _⟩ => ⟨S1x12544x128, .f32⟩
  | .local _ .vmem, ⟨4, _⟩ => ⟨S1x128x128, .f32⟩
  | .local _ .vmem, ⟨5, _⟩ => ⟨S1x128x128, .f32⟩
  | _, _ => ⟨S32x112x112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x12544x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x12544x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x112x112x128_S32x12544x128 : S32x112x112x128.ShapeCasts S32x12544x128
  inb_S1x12544x128_S1x12544x128_0_0_0 : ∀ a, (![0, 0, 0] : Fin 3 → Nat) a + S1x12544x128.size a ≤ S1x12544x128.size a
  h_S1x12544x128 : 0 < S1x12544x128.numel
  shapeCasts_S1x12544x128_S12544x128 : S1x12544x128.ShapeCasts S12544x128
  bitsLt_bf16_f32 : FTy.bits .bf16 < FTy.bits .f32
  reduces_S128x128_S128 : S128x128.Reduces [1] S128
  shapeCasts_S128_S128x1 : S128.ShapeCasts S128x1
  reduces_S128x1_S1 : S128x1.Reduces [0] S1
  shapeCasts_S1_S1x1 : S1.ShapeCasts S1x1
  broadcasts_S1x1_S128x128 : S1x1.Broadcasts S128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  shapeCasts_S128x128_S1x128x128 : S128x128.ShapeCasts S1x128x128
  shapeCasts_S32x128x128_S32x16384 : S32x128x128.ShapeCasts S32x16384
  dot_S12544x128_S12544x128_S128x128_0_0_1_1_n_n_wf : DotDims.WF S12544x128 S12544x128 S128x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x12544x128.size a ≤ S32x12544x128.size a
  hwx0_0 : ∀ i : grid0.Coords, EltTy.bits .f32 = 32 ∨ (Rect.block (s := S32x12544x128) S1x12544x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x12544x128.size a ≤ S32x12544x128.size a
  hwx0_1 : ∀ i : grid0.Coords, EltTy.bits .f32 = 32 ∨ (Rect.block (s := S32x12544x128) S1x12544x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S32x128x128.size a
  hwx0_2 : ∀ i : grid0.Coords, EltTy.bits .f32 = 32 ∨ (Rect.block (s := S32x128x128) S1x128x128.size (cc0_transform_2 i) (hinb0_2 i)).WholeWords (EltTy.packing .f32)

variable [Facts₀]

def dot_S12544x128_S12544x128_S128x128_0_0_1_1_n_n : DotDims S12544x128 S12544x128 S128x128 where
  lhsContracting := [0]
  rhsContracting := [0]
  lhsNonContracting := [1]
  rhsNonContracting := [1]
  lhsBatch := []
  rhsBatch := []
  wf := dot_S12544x128_S12544x128_S128x128_0_0_1_1_n_n_wf

abbrev win0_0 : Pipeline.Window sig grid0 :=
  Pipeline.Window.ofSpec (Memref.whole main_v0) S1x12544x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x12544x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x112x112x128 : Shape := ⟨4, ![32, 112, 112, 128]⟩
abbrev S32x12544x128 : Shape := ⟨3, ![32, 12544, 128]⟩
abbrev S32x128x128 : Shape := ⟨3, ![32, 128, 128]⟩
abbrev S32x16384 : Shape := ⟨2, ![32, 16384]⟩
abbrev S_ : Shape := ⟨0, ![]⟩
abbrev S32 : Shape := ⟨1, ![32]⟩
abbrev S32x1 : Shape := ⟨2, ![32, 1]⟩

abbrev nBuf : Space → Nat
  | .hbm => 23
  | .vmem => 0
  | .smem => 0
  | _ => 0

abbrev bufTy : (tb : Table) → Fin (tcTables nBuf tb) → BufTy
  | .hbm, ⟨0, _⟩ => ⟨S32x112x112x128, .f32⟩
  | .hbm, ⟨1, _⟩ => ⟨S32x112x112x128, .f32⟩
  | .hbm, ⟨2, _⟩ => ⟨S32x12544x128, .f32⟩
  | .hbm, ⟨3, _⟩ => ⟨S32x12544x128, .f32⟩
  | .hbm, ⟨4, _⟩ => ⟨S32x128x128, .f32⟩
  | .hbm, ⟨5, _⟩ => ⟨S32x16384, .f32⟩
  | .hbm, ⟨6, _⟩ => ⟨S32x16384, .f32⟩
  | .hbm, ⟨7, _⟩ => ⟨S32x16384, .f32⟩
  | .hbm, ⟨8, _⟩ => ⟨S_, .f32⟩
  | .hbm, ⟨9, _⟩ => ⟨S32x16384, .f32⟩
  | .hbm, ⟨10, _⟩ => ⟨S32x16384, .f32⟩
  | .hbm, ⟨11, _⟩ => ⟨S32x16384, .f32⟩
  | .hbm, ⟨12, _⟩ => ⟨S32x16384, .f32⟩
  | .hbm, ⟨13, _⟩ => ⟨S32x16384, .f32⟩
  | .hbm, ⟨14, _⟩ => ⟨S_, .f32⟩
  | .hbm, ⟨15, _⟩ => ⟨S32, .f32⟩
  | .hbm, ⟨16, _⟩ => ⟨S32x1, .f32⟩
  | .hbm, ⟨17, _⟩ => ⟨S_, .f32⟩
  | .hbm, ⟨18, _⟩ => ⟨S32x1, .f32⟩
  | .hbm, ⟨19, _⟩ => ⟨S32x1, .f32⟩
  | .hbm, ⟨20, _⟩ => ⟨S32x1, .f32⟩
  | .hbm, ⟨21, _⟩ => ⟨S32x16384, .f32⟩
  | .hbm, ⟨22, _⟩ => ⟨S32x16384, .f32⟩
  | _, _ => ⟨S32x112x112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]

class Facts₀ : Prop where
  shapeCasts_S32x112x112x128_S32x12544x128 : S32x112x112x128.ShapeCasts S32x12544x128
  shapeCasts_S32x128x128_S32x16384 : S32x128x128.ShapeCasts S32x16384
  bcast_S_S32x16384 : S_.BroadcastsInDim S32x16384 (![] : Fin 0 → Fin S32x16384.rank)
  reducesTo_S32x16384_S32_d1 : S32x16384.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x16384_0_1 : S32x1.BroadcastsInDim S32x16384 (![0, 1] : Fin 2 → Fin S32x16384.rank)
  dot_S32x12544x128_S32x12544x128_S32x128x128_1_1_2_2_0_0_wf : DotDims.WF S32x12544x128 S32x12544x128 S32x128x128 [1] [1] [2] [2] [0] [0]

variable [Facts₀]

def dot_S32x12544x128_S32x12544x128_S32x128x128_1_1_2_2_0_0 : DotDims S32x12544x128 S32x12544x128 S32x128x128 where
  lhsContracting := [1]
  rhsContracting := [1]
  lhsNonContracting := [2]
  rhsNonContracting := [2]
  lhsBatch := [0]
  rhsBatch := [0]
  wf := dot_S32x12544x128_S32x12544x128_S32x128x128_1_1_2_2_0_0_wf

class Facts : Prop extends Facts₀ where

variable [Facts]
-- ==== Proof.Spec.lean ====
/-
  Bilinear pooling as one function of the two feature arrays.

  For a batch element `b` the two arrays `L`, `R` of shape [32, 12544, 128] (12544 = 112 · 112 spatial positions,
  128 channels) are contracted over the positions into the Gram block `D c d = ∑ₖ L[b, k, c] · R[b, k, d]`. Each
  entry is replaced by its signed square root `s x = sign x · √(|x| + ε₁)`, and the block is scaled by
  `(max (∑ s²) ε₂)^(-1/2)`, the sum running over all 128 · 128 entries of the block. The result is laid out flat,
  entry `(c, d)` of block `b` at position `c · 128 + d` of row `b`.

  Whether the 128 · 128 squares are summed row by row or in one pass over the flat row is the same extended real:
  addition there is commutative and associative (`sum_flat`). Nothing here needs the entries to be finite.
-/
import Idealize.ShloMosaic.PureOps.Ideal
import Idealize.ShloMosaic.PureOps.Ideal.Laws
import Idealize.ShloMosaic.Lib.ValueIdx

noncomputable section

namespace Cert.Pooling

open Idealize.ShloMosaic Idealize.ShloMosaic.ValueIdx

/-- The signed square root: `sign x · √(|x| + ε₁)`, with `ε₁` the f32 nearest to 1e-9. -/
def ssqrt (x : EReal) : EReal :=
  Ideal.sign x * Ideal.sqrt (max x (-x) + Ideal.ofBits .f32 0x3089705F#32)

/-- The sum of the squared signed square roots over a whole 128 × 128 block, row by row. -/
def energy (D : Fin 128 → Fin 128 → EReal) : EReal :=
  ∑ c : Fin 128, ∑ d : Fin 128, ssqrt (D c d) * ssqrt (D c d)

/-- The normalised block: each signed square root times `(max energy ε₂)^(-1/2)`, `ε₂` the f32 nearest to 1e-12. -/
def pooled (D : Fin 128 → Fin 128 → EReal) (c d : Fin 128) : EReal :=
  ssqrt (D c d) * Ideal.rsqrt (max (energy D) (Ideal.ofBits .f32 0x2B8CBCCC#32))

/-- The Gram block of batch element `b`: the contraction over the 12544 spatial positions. -/
def gram (L R : (⟨3, ![32, 12544, 128]⟩ : Shape).Idx → EReal) (b : Fin 32) (c d : Fin 128) : EReal :=
  ∑ k : Fin 12544, L (ix3 b k c) * R (ix3 b k d)

/-- The high and low parts of a flat position `j = c · 128 + d`. -/
abbrev hi (j : Fin 16384) : Fin 128 := ⟨j.val / 128, by have := j.isLt; omega⟩
abbrev lo (j : Fin 16384) : Fin 128 := ⟨j.val % 128, by omega⟩

/-- The pooled blocks as an array of shape [32, 128, 128]. -/
def blocks (L R : (⟨3, ![32, 12544, 128]⟩ : Shape).Idx → EReal) : (⟨3, ![32, 128, 128]⟩ : Shape).Idx → EReal :=
  fun i => pooled (gram L R (i 0)) (i 1) (i 2)

/-- The result, flat: row `b`, position `j` holds entry `(j / 128, j % 128)` of block `b`. -/
def result (L R : (⟨3, ![32, 12544, 128]⟩ : Shape).Idx → EReal) : (⟨2, ![32, 16384]⟩ : Shape).Idx → EReal :=
  fun i => pooled (gram L R (i 0)) (hi (i 1)) (lo (i 1))

/-- A flat position is its pair of parts. -/
def flatEquiv : Fin 16384 ≃ Fin 128 × Fin 128 where
  toFun j := (hi j, lo j)
  invFun p := ⟨p.1.val * 128 + p.2.val, by have := p.1.isLt; have := p.2.isLt; omega⟩
  left_inv j := Fin.ext (by show j.val / 128 * 128 + j.val % 128 = j.val; omega)
  right_inv p := by
    have h1 := p.1.isLt; have h2 := p.2.isLt
    refine Prod.ext (Fin.ext ?_) (Fin.ext ?_)
    · show (p.1.val * 128 + p.2.val) / 128 = p.1.val; omega
    · show (p.1.val * 128 + p.2.val) % 128 = p.2.val; omega

/-- One pass over a flat row is the row-by-row double sum. -/
theorem sum_flat (f : Fin 128 → Fin 128 → EReal) :
    ∑ j : Fin 16384, f (hi j) (lo j) = ∑ c : Fin 128, ∑ d : Fin 128, f c d :=
  (Fintype.sum_equiv flatEquiv (fun j => f (hi j) (lo j)) (fun p => f p.1 p.2) (fun _ => rfl)).trans
    (Fintype.sum_prod_type' f)

end Cert.Pooling

end
-- ==== Proof.RefValue.lean ====
/-
  The reference computes the pooled result.

  Read one operation at a time, the reference contracts the two reshaped arrays over the spatial positions, flattens
  each 128 × 128 block into a row, takes the signed square root entry by entry, sums the squares over the whole row,
  and scales the row by `(max sum ε₂)^(-1/2)`. Position `j` of a row is entry `(j / 128, j % 128)` of the block, so the
  row sum is the block's energy (`Pooling.sum_flat`) and the result is `Pooling.result`.
-/
import proofs.«169290_j58231166599669_2_alg».proof.Proof.Gen.ReferenceIdeal.Read
import proofs.«169290_j58231166599669_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Pooling

variable (x0 x1 : (⟨S32x112x112x128, .f32⟩ : BufTy).Contents (Elt Ideal))

/-- The left factor of entry `j` of row `b` at position `k` is `L[b, k, j / 128]`. -/
theorem lidx_eq (b : Fin 32) (j : Fin 16384) (k : Fin 12544) :
    lidx_main_v2 (idx_main_v3 (ix2 b j)) k = ix3 b k (hi j) :=
  funext fun a => Fin.ext (by
    have hb := b.isLt; have hj := j.isLt
    match a with
    | ⟨0, _⟩ => show (b.val * 16384 + j.val) / 16384 = b.val; omega
    | ⟨1, _⟩ => rfl
    | ⟨2, _⟩ => show (b.val * 16384 + j.val) / 128 % 128 = j.val / 128; omega)

/-- The right factor is `R[b, k, j % 128]`. -/
theorem ridx_eq (b : Fin 32) (j : Fin 16384) (k : Fin 12544) :
    ridx_main_v2 (idx_main_v3 (ix2 b j)) k = ix3 b k (lo j) :=
  funext fun a => Fin.ext (by
    have hb := b.isLt; have hj := j.isLt
    match a with
    | ⟨0, _⟩ => show (b.val * 16384 + j.val) / 16384 = b.val; omega
    | ⟨1, _⟩ => rfl
    | ⟨2, _⟩ => show (b.val * 16384 + j.val) % 128 = j.val % 128; omega)

/-- The signed square root stage at position `j` of row `b`. -/
theorem signed_at (b : Fin 32) (j : Fin 16384) :
    val_main_v9 (F := Ideal) x0 x1 (ix2 b j)
      = ssqrt (gram (val_main_v0 (F := Ideal) x0) (val_main_v1 (F := Ideal) x1) b (hi j) (lo j)) := by
  rw [val_main_v9_apply, val_main_v4_apply, val_main_v8_apply, val_main_v7_apply, val_main_v5_apply, val_main_v6_apply,
    val_main_cst_apply, val_main_v3_apply, val_main_v2_apply]
  simp only [lidx_eq, ridx_eq]
  rfl

/-- The row sum for any entry of row `b` runs over the positions of row `b`. -/
theorem row_eq (b : Fin 32) (j k : Fin 16384) :
    idx_main_v11 (idx_main_v12 (idx_main_v16 (ix2 b j))) k = ix2 b k :=
  funext fun a => Fin.ext (by match a with | ⟨0, _⟩ => rfl | ⟨1, _⟩ => rfl)

/-- The reference's result is the pooled result of the two reshaped arrays. -/
theorem ref_eq :
    val_main_v17 (F := Ideal) x0 x1 = result (val_main_v0 (F := Ideal) x0) (val_main_v1 (F := Ideal) x1) := by
  funext i
  obtain ⟨b, j, rfl⟩ : ∃ (b : Fin 32) (j : Fin 16384), i = ix2 b j := ⟨i 0, i 1, eq_ix2 i⟩
  rw [val_main_v17_apply, signed_at, val_main_v16_apply, val_main_v15_apply, val_main_v14_apply, val_main_v12_apply,
    val_main_v13_apply, val_main_cst_1_apply, val_main_v11_apply, val_main_cst_0_apply]
  simp only [row_eq, val_main_v10_apply, signed_at]
  have hsum : ∑ x : Fin 16384, ssqrt (gram (val_main_v0 (F := Ideal) x0) (val_main_v1 (F := Ideal) x1) b (hi x) (lo x))
        * ssqrt (gram (val_main_v0 (F := Ideal) x0) (val_main_v1 (F := Ideal) x1) b (hi x) (lo x))
      = energy (gram (val_main_v0 (F := Ideal) x0) (val_main_v1 (F := Ideal) x1) b) :=
    sum_flat (fun c d => ssqrt (gram (val_main_v0 (F := Ideal) x0) (val_main_v1 (F := Ideal) x1) b c d)
      * ssqrt (gram (val_main_v0 (F := Ideal) x0) (val_main_v1 (F := Ideal) x1) b c d))
  simp only [Ideal.mulf_def, Ideal.maximumf_def, Ideal.hostUnary_rsqrt_def, Ideal.ofBits_def] at hsum ⊢
  rw [hsum, Ideal.ofBits_zero_f32, zero_add]
  rfl

end Cert.ReferenceIdeal.RefValue

end
-- ==== Proof.KernelBody.lean ====
/-
  One block of the kernel: what the body stores, entry by entry.

  The body loads one batch element's two [1, 12544, 128] blocks, contracts them over the 12544 positions into a
  128 × 128 Gram block (the change of float format before the product is the identity on extended reals, and the
  product into a zero accumulator is the plain sum), takes the signed square root of every entry, sums the squares
  over the lanes of each row and then over the rows, and scales the block by `(max sum ε₂)^(-1/2)`.

  The kernel writes the sign as "±1 by the sign bit where |x| > 0, else x itself"; on the extended reals that is the
  sign function at every value, zero and the infinities included. So the stored block is `Pooling.pooled` of the
  Gram block of the two loaded blocks.
-/
import proofs.«169290_j58231166599669_2_alg».proof.Proof.Gen.KernelIdeal.Skeleton
import proofs.«169290_j58231166599669_2_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.ValueIdx Cert.Pooling

/-! ## The Gram block of the two loaded blocks -/

/-- The contraction of the two loaded blocks over the spatial positions, as the body writes it. -/
def blockGram (x0 x1 : FVec Ideal S1x12544x128 .f32) : FVec Ideal S128x128 .f32 :=
  matmul dot_S12544x128_S12544x128_S128x128_0_0_1_1_n_n none
    (truncf .bf16 (shapeCast S12544x128 x0 shapeCasts_S1x12544x128_S12544x128) bitsLt_bf16_f32)
    (truncf .bf16 (shapeCast S12544x128 x1 shapeCasts_S1x12544x128_S12544x128) bitsLt_bf16_f32)
    (constant S128x128 .f32 0x00000000#32)

/-- Dropping a block's leading unit axis: entry `(k, c)` is entry `(0, k, c)`. -/
theorem dropUnit_at (x : FVec Ideal S1x12544x128 .f32) (k : Fin 12544) (c : Fin 128) :
    shapeCast S12544x128 x shapeCasts_S1x12544x128_S12544x128 (ix2 k c) = x (ix3 0 k c) :=
  shapeCast_apply x shapeCasts_S1x12544x128_S12544x128 (ix2 k c) (ix3 0 k c) (by
    rewrite [Shape.rowMajor_val_three, Shape.rowMajor_val_two]
    show (0 * 12544 + k.val) * 128 + c.val = k.val * 128 + c.val
    omega)

theorem lhs_pos (j : S128x128.Idx) (q : dot_S12544x128_S12544x128_S128x128_0_0_1_1_n_n.contr.Idx) :
    (dot_S12544x128_S12544x128_S128x128_0_0_1_1_n_n.lhsIdx j q 0).val = (q ⟨0, by decide⟩).val :=
  dot_S12544x128_S12544x128_S128x128_0_0_1_1_n_n.lhsIdx_val_of_single rfl j q
theorem lhs_chan (j : S128x128.Idx) (q : dot_S12544x128_S12544x128_S128x128_0_0_1_1_n_n.contr.Idx) :
    (dot_S12544x128_S12544x128_S128x128_0_0_1_1_n_n.lhsIdx j q 1).val = (j 0).val := by
  unfold DotDims.lhsIdx
  rw [dif_neg (show ¬(1 : Fin S12544x128.rank) ∈ dot_S12544x128_S12544x128_S128x128_0_0_1_1_n_n.lhsBatch by decide),
    dif_pos (show (1 : Fin S12544x128.rank) ∈ dot_S12544x128_S12544x128_S128x128_0_0_1_1_n_n.lhsNonContracting by decide)]
  rfl
theorem rhs_pos (j : S128x128.Idx) (q : dot_S12544x128_S12544x128_S128x128_0_0_1_1_n_n.contr.Idx) :
    (dot_S12544x128_S12544x128_S128x128_0_0_1_1_n_n.rhsIdx j q 0).val = (q ⟨0, by decide⟩).val :=
  dot_S12544x128_S12544x128_S128x128_0_0_1_1_n_n.rhsIdx_val_of_single rfl j q
theorem rhs_chan (j : S128x128.Idx) (q : dot_S12544x128_S12544x128_S128x128_0_0_1_1_n_n.contr.Idx) :
    (dot_S12544x128_S12544x128_S128x128_0_0_1_1_n_n.rhsIdx j q 1).val = (j 1).val := by
  unfold DotDims.rhsIdx
  rw [dif_neg (show ¬(1 : Fin S12544x128.rank) ∈ dot_S12544x128_S12544x128_S128x128_0_0_1_1_n_n.rhsBatch by decide),
    dif_pos (show (1 : Fin S12544x128.rank) ∈ dot_S12544x128_S12544x128_S128x128_0_0_1_1_n_n.rhsNonContracting by decide)]
  rfl

/-- Entry `(c, d)` of the Gram block is the sum over the positions of the products of the two blocks' entries. -/
theorem blockGram_at (x0 x1 : FVec Ideal S1x12544x128 .f32) (c d : Fin 128) :
    blockGram x0 x1 (ix2 c d) = ∑ k : Fin 12544, x0 (ix3 0 k c) * x1 (ix3 0 k d) := by
  unfold blockGram
  simp only [matmul]
  rw [Ideal.matmul_constant_zero_apply,
    ← Equiv.sum_comp (contrEquiv1 dot_S12544x128_S12544x128_S128x128_0_0_1_1_n_n 12544 rfl rfl).symm]
  refine Finset.sum_congr rfl fun k _ => ?_
  have hk := contrEquiv1_symm_val dot_S12544x128_S12544x128_S128x128_0_0_1_1_n_n 12544 rfl rfl k
  have el : dot_S12544x128_S12544x128_S128x128_0_0_1_1_n_n.lhsIdx (ix2 c d)
      ((contrEquiv1 dot_S12544x128_S12544x128_S128x128_0_0_1_1_n_n 12544 rfl rfl).symm k) = ix2 k c :=
    funext fun a => Fin.ext (by
      match a with
      | ⟨0, _⟩ => exact (lhs_pos _ _).trans hk
      | ⟨1, _⟩ => exact lhs_chan _ _)
  have er : dot_S12544x128_S12544x128_S128x128_0_0_1_1_n_n.rhsIdx (ix2 c d)
      ((contrEquiv1 dot_S12544x128_S12544x128_S128x128_0_0_1_1_n_n 12544 rfl rfl).symm k) = ix2 k d :=
    funext fun a => Fin.ext (by
      match a with
      | ⟨0, _⟩ => exact (rhs_pos _ _).trans hk
      | ⟨1, _⟩ => exact rhs_chan _ _)
  rw [el, er]
  exact congrArg₂ (· * ·) (dropUnit_at x0 k c) (dropUnit_at x1 k d)

/-! ## The signed square root -/

/-- The signed square root of every entry, as the body writes it. -/
def signedRoot (v : FVec Ideal S128x128 .f32) : FVec Ideal S128x128 .f32 :=
  mulf
    (select (cmpf .ogt (absf v) (broadcast S128x128 (Scalar.ofBits .f32 0x00000000#32)))
      (select (cmpf .olt v (constant S128x128 .f32 0x00000000#32)) (constant S128x128 .f32 0xBF800000#32)
        (constant S128x128 .f32 0x3F800000#32)) v)
    (sqrt (addf (absf v) (broadcast S128x128 (Scalar.ofBits .f32 0x3089705F#32))))

/-- At every entry it is `sign x · √(|x| + ε₁)`: the body's sign term is the sign function on the extended reals. -/
theorem signedRoot_at (v : FVec Ideal S128x128 .f32) (j : S128x128.Idx) : signedRoot v j = ssqrt (v j) :=
  congrArg₂ (· * ·) (Ideal.jnp_sign_eq_sign_f32 (v j)) rfl

/-! ## The normalisation -/

/-- The sum of squares over lanes, then rows, and the scaling of the block, as the body writes them. -/
def normalise (s : FVec Ideal S128x128 .f32) : FVec Ideal S1x128x128 .f32 :=
  shapeCast S1x128x128
    (mulf s (broadcastTo S128x128
      (rsqrt (maximumf
        (shapeCast S1x1
          (multiReduction .add [0] S1
            (shapeCast S128x1
              (multiReduction .add [1] S128 (mulf s s) 0x00000000#32 reduces_S128x128_S128 (.inl rfl) rfl)
              shapeCasts_S128_S128x1)
            0x00000000#32 reduces_S128x1_S1 (.inl rfl) rfl)
          shapeCasts_S1_S1x1)
        (broadcast S1x1 (Scalar.ofBits .f32 0x2B8CBCCC#32))))
      broadcasts_S1x1_S128x128))
    shapeCasts_S128x128_S1x128x128

/-- The body's stored value is these three steps composed. -/
theorem pay_eq (x0 x1 : FVec Ideal S1x12544x128 .f32) :
    k0_pay1 (F := Ideal) x0 x1 = normalise (signedRoot (blockGram x0 x1)) := rfl

/-! ### The layout steps, each at explicit coordinates -/

/-- The sum over the lanes of row `c`. -/
theorem laneSum_at (q : FVec Ideal S128x128 .f32) (c : Fin 128) :
    multiReduction .add [1] S128 q 0x00000000#32 reduces_S128x128_S128 (.inl rfl) rfl (ix1 c)
      = ∑ d : Fin 128, q (ix2 c d) :=
  (Ideal.multiReduction_add_single q 0x00000000#32 reduces_S128x128_S128 (.inl rfl) rfl (ix1 c)).trans
    (Finset.sum_congr rfl fun d _ => congrArg q (funext fun a => Fin.ext (by
      match a with | ⟨0, _⟩ => rfl | ⟨1, _⟩ => rfl)))

/-- The sum over the rows of a column vector. -/
theorem rowSum_at (q : FVec Ideal S128x1 .f32) :
    multiReduction .add [0] S1 q 0x00000000#32 reduces_S128x1_S1 (.inl rfl) rfl (ix1 0)
      = ∑ c : Fin 128, q (ix2 c 0) :=
  (Ideal.multiReduction_add_single q 0x00000000#32 reduces_S128x1_S1 (.inl rfl) rfl (ix1 0)).trans
    (Finset.sum_congr rfl fun c _ => congrArg q (funext fun a => Fin.ext (by
      match a with | ⟨0, _⟩ => rfl | ⟨1, _⟩ => rfl)))

/-- A vector of row sums viewed as a column: entry `(c, 0)` is entry `c`. -/
theorem column_at (r : FVec Ideal S128 .f32) (c : Fin 128) :
    shapeCast S128x1 r shapeCasts_S128_S128x1 (ix2 c 0) = r (ix1 c) :=
  shapeCast_apply r shapeCasts_S128_S128x1 (ix2 c 0) (ix1 c) (by
    rewrite [Shape.rowMajor_val_one, Shape.rowMajor_val_two]
    show c.val = c.val * 1 + 0
    omega)

/-- The one total viewed as a 1 × 1 block. -/
theorem unit_at (r : FVec Ideal S1 .f32) :
    shapeCast S1x1 r shapeCasts_S1_S1x1 (ix2 0 0) = r (ix1 0) :=
  shapeCast_apply r shapeCasts_S1_S1x1 (ix2 0 0) (ix1 0) (by
    rewrite [Shape.rowMajor_val_one, Shape.rowMajor_val_two]
    show 0 = 0 * 1 + 0
    omega)

/-- The 1 × 1 block spread over the 128 × 128 block: every entry is the one value. -/
theorem spread_at (r : FVec Ideal S1x1 .f32) (c d : Fin 128) :
    broadcastTo S128x128 r broadcasts_S1x1_S128x128 (ix2 c d) = r (ix2 0 0) :=
  broadcastTo_apply r broadcasts_S1x1_S128x128 (ix2 c d) (ix2 0 0) (fun a => by
    match a with | ⟨0, _⟩ => rfl | ⟨1, _⟩ => rfl)

/-- The block stored with a leading unit axis: entry `(0, c, d)` is entry `(c, d)`. -/
theorem addUnit_at (r : FVec Ideal S128x128 .f32) (c d : Fin 128) :
    shapeCast S1x128x128 r shapeCasts_S128x128_S1x128x128 (ix3 0 c d) = r (ix2 c d) :=
  shapeCast_apply r shapeCasts_S128x128_S1x128x128 (ix3 0 c d) (ix2 c d) (by
    rewrite [Shape.rowMajor_val_two, Shape.rowMajor_val_three]
    show c.val * 128 + d.val = (0 * 128 + c.val) * 128 + d.val
    omega)

/-- Entry `(c, d)` of the normalised block: the entry times `(max (∑ of all squares) ε₂)^(-1/2)`. -/
theorem normalise_at (s : FVec Ideal S128x128 .f32) (c d : Fin 128) :
    normalise s (ix3 0 c d)
      = s (ix2 c d) * Ideal.rsqrt (max (∑ c' : Fin 128, ∑ d' : Fin 128, s (ix2 c' d') * s (ix2 c' d'))
          (Ideal.ofBits .f32 0x2B8CBCCC#32)) := by
  unfold normalise
  refine (addUnit_at _ c d).trans ?_
  refine congrArg (s (ix2 c d) * ·) ?_
  refine (spread_at _ c d).trans ?_
  refine congrArg (fun e => Ideal.rsqrt (max e (Ideal.ofBits .f32 0x2B8CBCCC#32))) ?_
  refine (unit_at _).trans ?_
  refine (rowSum_at _).trans ?_
  refine Finset.sum_congr rfl fun c' _ => ?_
  refine (column_at _ c').trans ?_
  exact laneSum_at (mulf s s) c'

/-! ## The stored block -/

/-- Entry `(0, c, d)` of what the body stores is the pooled entry `(c, d)` of the Gram block of the loaded blocks. -/
theorem pay_at (x0 x1 : FVec Ideal S1x12544x128 .f32) (c d : Fin 128) :
    k0_pay1 (F := Ideal) x0 x1 (ix3 0 c d)
      = pooled (fun c d => ∑ k : Fin 12544, x0 (ix3 0 k c) * x1 (ix3 0 k d)) c d := by
  rw [pay_eq, normalise_at]
  simp only [signedRoot_at, blockGram_at]
  rfl

/-- The same at any index of the stored block: its leading coordinate is `0`, there being one batch element per block. -/
theorem pay_entry (x0 x1 : FVec Ideal S1x12544x128 .f32) (y : S1x128x128.Idx) :
    k0_pay1 (F := Ideal) x0 x1 y
      = pooled (fun c d => ∑ k : Fin 12544, x0 (ix3 0 k c) * x1 (ix3 0 k d)) (y 1) (y 2) := by
  obtain ⟨y0, cc, dd, rfl⟩ : ∃ (y0 : Fin 1) (cc dd : Fin 128), y = ix3 y0 cc dd := ⟨y 0, y 1, y 2, eq_ix3 y⟩
  obtain rfl : y0 = 0 := Subsingleton.elim _ _
  exact pay_at x0 x1 cc dd

end Cert.KernelIdeal.Body

end
-- ==== Proof.KernelArrays.lean ====
/-
  From blocks to the array, and through the final reshape.

  Grid point `t` handles batch element `t`: all three windows sit at block `(t, 0, 0)`, the inputs' blocks being the
  whole [12544, 128] slab of element `t` and the output's block the whole [128, 128] slab. So what point `t` writes
  back is block `t` of `Pooling.blocks` of the two arrays the region finds, the 32 blocks tile the output array, and
  after the run the array is `Pooling.blocks`. The program then flattens each [128, 128] block into a row, which is
  `Pooling.result`; the two arrays the region finds are the arguments reshaped to [32, 12544, 128].
-/
import proofs.«169290_j58231166599669_2_alg».proof.Proof.Gen.KernelIdeal.Frame
import proofs.«169290_j58231166599669_2_alg».proof.Proof.KernelBody
import proofs.«169290_j58231166599669_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Arrays

open Cert.KernelIdeal Cert.KernelIdeal.Gen
open Idealize.ShloMosaic Idealize.ShloMosaic.TcCoe Idealize.SL.Sem Idealize.ShloMosaic.ValueIdx Cert.Pooling
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl

/-- The two arrays as the region finds them, of shape [32, 12544, 128]. -/
abbrev lhs (c : Dev nD) : S32x12544x128.Idx → EReal := V m c main_v0
abbrev rhs (c : Dev nD) : S32x12544x128.Idx → EReal := V m c main_v1

/-- The printed index maps over the 32 points: every window's block index is `(t, 0, 0)` with the same `t`. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0 ∧ win0_2.index t (0 : Fin 3) < 32 :=
  (by decide +kernel : ∀ t : Fin grid0.N, _)

/-- Every batch element is some point's. -/
theorem idx_onto : ∀ b : Fin 32, ∃ t : Fin cfg0.N, win0_2.index t (0 : Fin 3) = b.val :=
  (by decide +kernel : ∀ b : Fin 32, ∃ t : Fin grid0.N, win0_2.index t (0 : Fin 3) = b.val)

/-- What point `t` writes back is block `t` of the pooled blocks of the two arrays. -/
theorem flushed_eq (c : Dev nD) (t : Fin cfg0.N) :
    (dats m 0 c).flushed 2 t = ((cfg0.win 2).blk t).view.read (Elt Ideal) (blocks (lhs m c) (rhs m c)) := by
  show (cfg0.win 2).cut (grid0.coords t) ((dats m 0 c).after 2 t) = _
  rw [after0_2]
  unfold out0_2
  rw [View.canon_unit_zero zeros3]
  simp only [View.ld_unit_zero (S := S1x12544x128) zeros3]
  obtain ⟨e0, e1, e2, e3, e4, e5, e6, e7, e8⟩ := idx_facts t
  funext y
  have hy0 : (y 0).val < 1 := (y 0).isLt
  -- the block's entry `y` sits in the array at `(t, y 1, y 2)`
  have hemb : ((cfg0.win 2).blk t).view.emb y = ix3 ⟨win0_2.index t (0 : Fin 3), e8⟩ (y 1) (y 2) := by
    funext a; apply Fin.ext
    match a with
    | ⟨0, _⟩ => show win0_2.index t (0 : Fin 3) * 1 + 1 * (y 0).val = win0_2.index t (0 : Fin 3); omega
    | ⟨1, _⟩ => show win0_2.index t (1 : Fin 3) * 128 + 1 * (y 1).val = (y 1).val; omega
    | ⟨2, _⟩ => show win0_2.index t (2 : Fin 3) * 128 + 1 * (y 2).val = (y 2).val; omega
  -- and the input blocks' entries are the arrays' entries of batch element `t`
  have hL : ∀ (k : Fin 12544) (cc : Fin 128),
      iblk m c 0 t (ix3 0 k cc) = lhs m c (ix3 ⟨win0_2.index t (0 : Fin 3), e8⟩ k cc) := by
    intro k cc
    show V m c main_v0 (((cfg0.win 0).blk t).view.emb (ix3 0 k cc)) = _
    refine congrArg (V m c main_v0) (funext fun a => Fin.ext ?_)
    match a with
    | ⟨0, _⟩ => show win0_0.index t (0 : Fin 3) * 1 + 1 * 0 = win0_2.index t (0 : Fin 3); omega
    | ⟨1, _⟩ => show win0_0.index t (1 : Fin 3) * 12544 + 1 * k.val = k.val; omega
    | ⟨2, _⟩ => show win0_0.index t (2 : Fin 3) * 128 + 1 * cc.val = cc.val; omega
  have hR : ∀ (k : Fin 12544) (dd : Fin 128),
      iblk m c 1 t (ix3 0 k dd) = rhs m c (ix3 ⟨win0_2.index t (0 : Fin 3), e8⟩ k dd) := by
    intro k dd
    show V m c main_v1 (((cfg0.win 1).blk t).view.emb (ix3 0 k dd)) = _
    refine congrArg (V m c main_v1) (funext fun a => Fin.ext ?_)
    match a with
    | ⟨0, _⟩ => show win0_1.index t (0 : Fin 3) * 1 + 1 * 0 = win0_2.index t (0 : Fin 3); omega
    | ⟨1, _⟩ => show win0_1.index t (1 : Fin 3) * 12544 + 1 * k.val = k.val; omega
    | ⟨2, _⟩ => show win0_1.index t (2 : Fin 3) * 128 + 1 * dd.val = dd.val; omega
  refine (Body.pay_entry (iblk m c 0 t) (iblk m c 1 t) y).trans ?_
  show _ = blocks (lhs m c) (rhs m c) (((cfg0.win 2).blk t).view.emb y)
  rw [hemb]
  simp only [hL, hR]
  rfl

/-- An index of the output array is in point `t`'s block iff each coordinate is in the block's range on its axis. -/
theorem mem_blk (t : Fin cfg0.N) (i : S32x128x128.Idx) :
    i ∈ ((cfg0.win 2).blk t).view.set ↔ ∀ a : Fin 3, win0_2.index t a * S1x128x128.size a ≤ (i a).val
      ∧ (i a).val < win0_2.index t a * S1x128x128.size a + S1x128x128.size a := by
  show i ∈ ((View.whole main_v2).slice (win0_2.rect t)).set ↔ _
  rw [View.set_slice_whole, Rect.mem_set_unit]
  exact Iff.rfl

/-- The 32 blocks tile the output array: index `(b, c, d)` is in the block of the point that handles `b`. -/
theorem cover (i : S32x128x128.Idx) :
    ∃ t : Fin cfg0.N, (cfg0.win 2).flush t = true ∧ i ∈ ((cfg0.win 2).blk t).view.set := by
  obtain ⟨t, ht⟩ := idx_onto (i 0)
  obtain ⟨-, -, -, -, -, -, e6, e7, -⟩ := idx_facts t
  have h1 : (i 1).val < 128 := (i 1).isLt
  have h2 : (i 2).val < 128 := (i 2).isLt
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 128 ≤ (i 2).val ∧ (i 2).val < win0_2.index t (2 : Fin 3) * 128 + 128; omega

/-- The output array after the run is the pooled blocks of the two arrays the region found. -/
theorem final (c : Dev nD) : (dats m 0 c).arrAt 2 cfg0.N = blocks (lhs m c) (rhs m c) :=
  (dats m 0 c).arrAt_eq_of_cover 2 (blocks (lhs m c) (rhs m c)) (fun t _ => flushed_eq m c t) cover

/-! ## Around the region -/

/-- The array window 0 stages is the first argument reshaped to [32, 12544, 128]. -/
theorem lhs_eq (c : Dev nD) :
    lhs m c = shapeCast S32x12544x128 (m ((c : Thread nD τ).loc main_arg0)) shapeCasts_S32x112x112x128_S32x12544x128 := by
  show StableHlo.after hostOps0 (fun b => m (c, b)) (Proc.devRef .tc main_v0) = _
  after_results
  rfl

/-- The array window 1 stages is the second argument reshaped. -/
theorem rhs_eq (c : Dev nD) :
    rhs m c = shapeCast S32x12544x128 (m ((c : Thread nD τ).loc main_arg1)) shapeCasts_S32x112x112x128_S32x12544x128 := by
  show StableHlo.after hostOps0 (fun b => m (c, b)) (Proc.devRef .tc main_v1) = _
  after_results
  rfl

/-- The result buffer after the line that follows the region: the output array reshaped to [32, 16384]. -/
theorem tail_eq (c : Dev nD) :
    Pipeline.afterTail₀ cfgs (dats m) 0 (V0 m) [hostOps1] c main_v3
      = shapeCast S32x16384 ((dats m 0 c).arrAt 2 cfg0.N) shapeCasts_S32x128x128_S32x16384 := by
  unfold Pipeline.afterTail₀
  show StableHlo.after hostOps1 _ (Proc.devRef .tc main_v3) = _
  after_results
  have h : Pipeline.withArrays (cfgs 0).spec c (V0 m c) (fun w => (dats m 0 c).arrAt w (cfgs 0).N)
      (Proc.tc.devRef main_v2) = (dats m 0 c).arrAt 2 cfg0.N :=
    Pipeline.withArrays_arr spec0 launch0.win.arr_inj c (V0 m c) _ 2
  rw [h]
  rfl

/-- Flattening each [128, 128] block into a row: position `j` of row `b` is entry `(j / 128, j % 128)` of block `b`. -/
theorem flatten_blocks (L R : S32x12544x128.Idx → EReal) :
    shapeCast S32x16384 (blocks L R) shapeCasts_S32x128x128_S32x16384 = result L R := by
  funext i
  obtain ⟨b, j, rfl⟩ : ∃ (b : Fin 32) (j : Fin 16384), i = ix2 b j := ⟨i 0, i 1, eq_ix2 i⟩
  refine (shapeCast_apply (blocks L R) shapeCasts_S32x128x128_S32x16384 (ix2 b j) (ix3 b (hi j) (lo j)) (by
    rewrite [Shape.rowMajor_val_three, Shape.rowMajor_val_two]
    show (b.val * 128 + j.val / 128) * 128 + j.val % 128 = b.val * 16384 + j.val
    have := j.isLt
    omega)).trans ?_
  rfl

/-- The result buffer ends at the pooled result of the two reshaped arguments. -/
theorem value (c : Dev nD) :
    Pipeline.afterTail₀ cfgs (dats m) 0 (V0 m) [hostOps1] c main_v3
      = result (shapeCast S32x12544x128 (m ((c : Thread nD τ).loc main_arg0)) shapeCasts_S32x112x112x128_S32x12544x128)
          (shapeCast S32x12544x128 (m ((c : Thread nD τ).loc main_arg1)) shapeCasts_S32x112x112x128_S32x12544x128) := by
  rw [tail_eq, final]
  rw [lhs_eq, rhs_eq]
  exact flatten_blocks _ _

/-- The kernel program's run, read: every weakly fair execution terminates with the result buffer at the pooled result
    of the two reshaped arguments, and the arguments as launched. -/
theorem run : θ_run defs (onTc (τ := τ) (main (F := Ideal))) ⟨m, fun _ => 0, ρ⟩ fun r => ∀ c : Dev nD,
      r.2.mem ((c : Thread nD τ).loc main_v3)
        = result (shapeCast S32x12544x128 (m ((c : Thread nD τ).loc main_arg0)) shapeCasts_S32x112x112x128_S32x12544x128)
            (shapeCast S32x12544x128 (m ((c : Thread nD τ).loc main_arg1)) shapeCasts_S32x112x112x128_S32x12544x128)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v3 (Pipeline.mem_restRefs_of main_v3 (by decide) (by decide))).trans (value m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Arrays

end
-- ==== Proof.lean ====
/-
  Bilinear pooling with signed square root and L2 normalisation: the kernel against its jnp reference.

  Both programs reshape the two [32, 112, 112, 128] arguments to [32, 12544, 128] and, per batch element, contract
  them over the 12544 spatial positions into a 128 × 128 Gram block, take `sign x · √(|x| + ε₁)` of every entry,
  and scale the block by `(max (sum of the squares) ε₂)^(-1/2)`; the result is the blocks laid out flat, [32, 16384].
  The kernel does this one batch element per grid point and flattens at the end, summing the squares over lanes and
  then rows; the reference flattens first and sums each row in one pass. On the extended reals these are one
  function (`Pooling.result`): the same literals `ε₁`, `ε₂` on both sides, the kernel's sign term the sign function,
  and the two orders of summation equal because addition is commutative and associative. The precondition is never
  opened.

  The three programs' frames are the generated ones (the reference's is its generated run with the result dropped);
  the one ledger entry, the sign bit read as a comparison with zero, is the rule's statement.
-/
import proofs.«169290_j58231166599669_2_alg».proof.Defs
import proofs.«169290_j58231166599669_2_alg».proof.Proof.Gen.Kernel
import proofs.«169290_j58231166599669_2_alg».proof.Proof.Gen.Kernel.Frame
import proofs.«169290_j58231166599669_2_alg».proof.Proof.Gen.KernelIdeal
import proofs.«169290_j58231166599669_2_alg».proof.Proof.Gen.KernelIdeal.Frame
import proofs.«169290_j58231166599669_2_alg».proof.Proof.Gen.ReferenceIdeal
import proofs.«169290_j58231166599669_2_alg».proof.Proof.Gen.ReferenceIdeal.Run
import proofs.«169290_j58231166599669_2_alg».proof.Proof.Gen.ReferenceIdeal.Read
import proofs.«169290_j58231166599669_2_alg».proof.Proof.Gen.Pre_finite_inputs
import proofs.«169290_j58231166599669_2_alg».proof.Proof.Spec
import proofs.«169290_j58231166599669_2_alg».proof.Proof.RefValue
import proofs.«169290_j58231166599669_2_alg».proof.Proof.KernelBody
import proofs.«169290_j58231166599669_2_alg».proof.Proof.KernelArrays
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- And the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ledger's one entry: 1.0 carrying the sign bit of `x` is `-1` where `x < 0` and `1` elsewhere. -/
theorem preserves : Cert.preserves_Kernel_KernelIdeal :=
  IdealRules.sign_bit.statement Cert.KernelIdeal.S128x128 .f32

/-- From memories agreeing on the arguments both idealized programs end with the pooled result of the reshaped
    arguments: the kernel by its blocks and the final flattening, the reference operation by operation. -/
theorem algebraic : Cert.algebraic_KernelIdeal_ReferenceIdeal := by
  intro m ρ m' ρ' _ hagree
  refine ⟨_, Cert.KernelIdeal.Arrays.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.ReferenceIdeal.RefValue.ref_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
